-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x256 .f32) (main_arg8 : FVec F S512 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S512x256 .f32) (main_arg8 : FVec F S512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x512x4096 .f32) (main_arg1 : FVec F S16x256 .f32) (main_arg2 : FVec F S512x512 .f32) (main_arg3 : FVec F S256x256 .f32) (main_arg4 : FVec F S256 .f32) (main_arg5 : FVec F S256x256 .f32) (main_arg6 : FVec F S256 .f32) (main_arg7 : FVec F S512x256 .f32) (main_arg8 : FVec F S512 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S1x256 : Shape := ⟨2, ![1, 256]⟩
abbrev S_ : Shape := ⟨0, ![]⟩
abbrev S256x512 : Shape := ⟨2, ![256, 512]⟩
abbrev S16x512 : Shape := ⟨2, ![16, 512]⟩
abbrev S1x512 : Shape := ⟨2, ![1, 512]⟩
abbrev S16x1x512 : Shape := ⟨3, ![16, 1, 512]⟩
abbrev S1x1x512 : Shape := ⟨3, ![1, 1, 512]⟩
abbrev S1x512x2048 : Shape := ⟨3, ![1, 512, 2048]⟩
abbrev S512x1 : Shape := ⟨2, ![512, 1]⟩
abbrev S512x2048 : Shape := ⟨2, ![512, 2048]⟩

abbrev nBuf : Space → Nat
  | .hbm => 47
  | .vmem => 8
  | .smem => 0
  | _ => 0

abbrev bufTy : (tb : Table) → Fin (tcTables nBuf tb) → BufTy
  | .hbm, ⟨0, _⟩ => ⟨S16x512x4096, .f32⟩
  | .hbm, ⟨1, _⟩ => ⟨S16x256, .f32⟩
  | .hbm, ⟨2, _⟩ => ⟨S512x512, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x256, .f32⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S256x256, .f32⟩
  | .hbm, ⟨24, _⟩ => ⟨S16x256, .f32⟩
  | .hbm, ⟨25, _⟩ => ⟨S1x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x512, .f32⟩
  | .hbm, ⟨38, _⟩ => ⟨S16x512, .f32⟩
  | .hbm, ⟨39, _⟩ => ⟨S1x512, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S16x1x512, .f32⟩
  | .hbm, ⟨46, _⟩ => ⟨S16x512x4096, .f32⟩
  | .local _ .vmem, ⟨0, _⟩ => ⟨S512x512, .f32⟩
  | .local _ .vmem, ⟨1, _⟩ => ⟨S1x1x512, .f32⟩
  | .local _ .vmem, ⟨2, _⟩ => ⟨S1x1x512, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S512x512, .bf16⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  shapeCasts_S16x512_S16x1x512 : S16x512.ShapeCasts S16x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S16x256_S256x256_S16x256_1_0_0_1_n_n_wf : DotDims.WF S16x256 S256x256 S16x256 [1] [0] [0] [1] [] []
  dot_S16x256_S256x512_S16x512_1_0_0_1_n_n_wf : DotDims.WF S16x256 S256x512 S16x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x512x4096.size a
  hwx0_2 : ∀ i : grid0.Coords, EltTy.bits .f32 = 32 ∨ (Rect.block (s := S16x512x4096) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x512x4096.size a
  hwx0_3 : ∀ i : grid0.Coords, EltTy.bits .f32 = 32 ∨ (Rect.block (s := S16x512x4096) S1x512x2048.size (cc0_transform_3 i) (hinb0_3 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg2) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x4096 : Shape := ⟨3, ![16, 512, 4096]⟩
abbrev S16x256 : Shape := ⟨2, ![16, 256]⟩
abbrev S512x512 : Shape := ⟨2, ![512, 512]⟩
abbrev S256x256 : Shape := ⟨2, ![256, 256]⟩
abbrev S256 : Shape := ⟨1, ![256]⟩
abbrev S512x256 : Shape := ⟨2, ![512, 256]⟩
abbrev S512 : Shape := ⟨1, ![512]⟩
abbrev S1x256 : Shape := ⟨2, ![1, 256]⟩
abbrev S_ : Shape := ⟨0, ![]⟩
abbrev S256x512 : Shape := ⟨2, ![256, 512]⟩
abbrev S16x512 : Shape := ⟨2, ![16, 512]⟩
abbrev S1x512 : Shape := ⟨2, ![1, 512]⟩
abbrev S1x512x512 : Shape := ⟨3, ![1, 512, 512]⟩
abbrev S16x1x512 : Shape := ⟨3, ![16, 1, 512]⟩
abbrev S16x512x512 : Shape := ⟨3, ![16, 512, 512]⟩
abbrev S16x512x1 : Shape := ⟨3, ![16, 512, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S16x256, .f32⟩
  | .hbm, ⟨2, _⟩ => ⟨S512x512, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S256x256, .f32⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S256x256, .f32⟩
  | .hbm, ⟨24, _⟩ => ⟨S16x256, .f32⟩
  | .hbm, ⟨25, _⟩ => ⟨S1x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x512, .f32⟩
  | .hbm, ⟨38, _⟩ => ⟨S16x512, .f32⟩
  | .hbm, ⟨39, _⟩ => ⟨S1x512, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S1x512x512, .f32⟩
  | .hbm, ⟨46, _⟩ => ⟨S16x1x512, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S16x512x512, .f32⟩
  | .hbm, ⟨51, _⟩ => ⟨S_, .f32⟩
  | .hbm, ⟨52, _⟩ => ⟨S16x512, .f32⟩
  | .hbm, ⟨53, _⟩ => ⟨S_, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S16x512x1, .f32⟩
  | .hbm, ⟨58, _⟩ => ⟨S16x512x512, .f32⟩
  | .hbm, ⟨59, _⟩ => ⟨S16x512x512, .f32⟩
  | .hbm, ⟨60, _⟩ => ⟨S16x512x4096, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_0 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S512x512_S1x512x512_1_2 : S512x512.BroadcastsInDim S1x512x512 (![1, 2] : Fin 2 → Fin S1x512x512.rank)
  bcast_S16x512_S16x1x512_0_2 : S16x512.BroadcastsInDim S16x1x512 (![0, 2] : Fin 2 → Fin S16x1x512.rank)
  bcast_S1x512x512_S16x512x512_0_1_2 : S1x512x512.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  dot_S16x256_S256x256_S16x256_1_0_0_1_n_n_wf : DotDims.WF S16x256 S256x256 S16x256 [1] [0] [0] [1] [] []
  dot_S16x256_S256x512_S16x512_1_0_0_1_n_n_wf : DotDims.WF S16x256 S256x512 S16x512 [1] [0] [0] [1] [] []
  dot_S16x512x512_S16x512x4096_S16x512x4096_2_1_1_2_0_0_wf : DotDims.WF S16x512x512 S16x512x4096 S16x512x4096 [2] [1] [1] [2] [0] [0]

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.Spec.lean ====
/-
  The modulated, demodulated 1x1 convolution, index by index over the extended reals.

  For a weight matrix `w` of shape [512, 512] (output channel, input channel), a row `r` of 512 modulation scales
  and a sample `x`: the weight is scaled along its input channels, `w(o, i) · r(i)`; each output channel's scaled
  row is normalised by the inverse square root of its sum of squares plus a small constant; and the normalised
  weight is contracted with the sample over the input channels. The batch picks its own row of scales.
-/
import Idealize.ShloMosaic.Lib.ValueIdx
import Idealize.ShloMosaic.PureOps.Ideal.Laws

noncomputable section

open scoped BigOperators

namespace Cert.ModConv

open Idealize.ShloMosaic Idealize.ShloMosaic.ValueIdx

/-- The sample's shape: batch, input channel, position. -/
abbrev XShape : Shape := ⟨3, ![16, 512, 4096]⟩
/-- The weight's shape: output channel, input channel. -/
abbrev WShape : Shape := ⟨2, ![512, 512]⟩
/-- The scales' shape: batch, input channel. -/
abbrev SShape : Shape := ⟨2, ![16, 512]⟩

/-- The weight scaled along its input channels by one row of scales. -/
def scaled (w : WShape.Idx → EReal) (r : Fin 512 → EReal) (o i : Fin 512) : EReal := w (ix2 o i) * r i

/-- The normaliser of output channel `o`: the inverse square root of the scaled row's sum of squares plus the small
    constant (kept as its binary word: both programs spell the same one). -/
def demod (w : WShape.Idx → EReal) (r : Fin 512 → EReal) (o : Fin 512) : EReal :=
  Ideal.rsqrt ((∑ k : Fin 512, scaled w r o k * scaled w r o k) + Ideal.ofBits .f32 0x322BCC77#32)

/-- The scaled weight, each output channel normalised. -/
def demodulated (w : WShape.Idx → EReal) (r : Fin 512 → EReal) (o i : Fin 512) : EReal := scaled w r o i * demod w r o

/-- Row `b` of the scales. -/
def scaleRow (s : SShape.Idx → EReal) (b : Fin 16) : Fin 512 → EReal := fun i => s (ix2 b i)

/-- The result: at (batch, output channel, position) the normalised weight of that batch's scales contracted with
    the sample over the input channels. -/
def conv (x : XShape.Idx → EReal) (w : WShape.Idx → EReal) (s : SShape.Idx → EReal) : XShape.Idx → EReal :=
  fun j => ∑ k : Fin 512, demodulated w (scaleRow s (j 0)) (j 1) k * x (ix3 (j 0) k (j 2))

end Cert.ModConv

end
-- ==== Proof.KernelCases.lean ====
/-
  What one run of the kernel body leaves behind, as the body's stored values.

  At the first position tile of a batch the body overwrites the whole scratch with the normalised scaled weight
  computed from the weight tile and the scales' tile, reads it back, and stores its product with the sample tile
  into the output tile. At a later tile it leaves the scratch alone and stores the product of what the scratch
  already held with the sample tile.
-/
import proofs.«127023_j78365973282955_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the scratch ends at the normalised scaled weight. -/
theorem scratch_first (c : Dev nD) (i : grid0.Coords) (a2 : Memref sig .tc .vmem S512x512 .f32) (h2 : a2.IsWhole)
    (a3 : Memref sig .tc .vmem S1x1x512 .f32) (h3 : a3.IsWhole) (a4 : Memref sig .tc .vmem S1x512x2048 .f32) (h4 : a4.IsWhole)
    (a5 : Memref sig .tc .vmem S1x512x2048 .f32) (h5 : a5.IsWhole) (a6 : Memref sig .tc .vmem S512x512 .bf16) (h6 : a6.IsWhole)
    (hc : cond0_0 i) (x0 : Vec F S512x512 .f32) (x1 : Vec F S1x1x512 .f32) (x2 : Vec F S1x512x2048 .f32) :
    sout0_A_0 c i a2 h2 a3 h3 a4 h4 a5 h5 a6 h6 hc x0 x1 x2 = k0_pay1 x1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S512x512) hz2, View.ld_unit_zero (S := S1x1x512) hz3]

/-- First tile of a batch: the output tile ends at the product of that scratch with the sample tile. -/
theorem out_first (c : Dev nD) (i : grid0.Coords) (a2 : Memref sig .tc .vmem S512x512 .f32) (h2 : a2.IsWhole)
    (a3 : Memref sig .tc .vmem S1x1x512 .f32) (h3 : a3.IsWhole) (a4 : Memref sig .tc .vmem S1x512x2048 .f32) (h4 : a4.IsWhole)
    (a5 : Memref sig .tc .vmem S1x512x2048 .f32) (h5 : a5.IsWhole) (a6 : Memref sig .tc .vmem S512x512 .bf16) (h6 : a6.IsWhole)
    (hc : cond0_0 i) (x0 : Vec F S512x512 .f32) (x1 : Vec F S1x1x512 .f32) (x2 : Vec F S1x512x2048 .f32) :
    out0_A_3 c i a2 h2 a3 h3 a4 h4 a5 h5 a6 h6 hc x0 x1 x2 = k0_pay2 x2 (k0_pay1 x1 x0) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3, View.readCov_unit_zero (S := S512x512) _ hz2]
  simp only [View.readAt_eq_ld, h2.read_unread, h3.read_unread, h4.read_unread, View.ld_unit_zero (S := S512x512) hz2,
    View.ld_unit_zero (S := S1x1x512) hz3, View.ld_unit_zero (S := S1x512x2048) hz3]

/-- A later tile: the output tile ends at the product of what the scratch held with the sample tile. -/
theorem out_later (c : Dev nD) (i : grid0.Coords) (a2 : Memref sig .tc .vmem S512x512 .f32) (h2 : a2.IsWhole)
    (a3 : Memref sig .tc .vmem S1x1x512 .f32) (h3 : a3.IsWhole) (a4 : Memref sig .tc .vmem S1x512x2048 .f32) (h4 : a4.IsWhole)
    (a5 : Memref sig .tc .vmem S1x512x2048 .f32) (h5 : a5.IsWhole) (a6 : Memref sig .tc .vmem S512x512 .bf16) (h6 : a6.IsWhole)
    (hc : ¬cond0_0 i) (x0 : Vec F S512x512 .f32) (x1 : Vec F S1x1x512 .f32) (x2 : Vec F S1x512x2048 .f32) (xs : Vec F S512x512 .bf16) :
    out0_B_3 c i a2 h2 a3 h3 a4 h4 a5 h5 a6 h6 hc x0 x1 x2 xs = k0_pay2 x2 xs := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz3]
  simp only [View.readAt_eq_ld, h4.read_unread, h6.read_unread, View.ld_unit_zero (S := S1x512x2048) hz3, View.ld_unit_zero (S := S512x512) hz2]

end Cert.KernelIdeal.Cases

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelPayload.lean ====
/-
  The kernel body's two stored values read by coordinates, over the extended reals.

  The first store (taken when the position tile is the first of its batch) writes the normalised scaled weight
  into the scratch: the scales' block is a [1, 1, 512] tile laid out as a row, broadcast down the weight's
  output channels, multiplied in, squared and summed along each output channel's row, shifted by the small
  constant, inverse-square-rooted as a column, broadcast back along the rows and multiplied in again. The second
  store writes the product of the scratch with the sample's [512, 2048] tile. Changes of float format are the
  identity on the extended reals.
-/
import proofs.«127023_j78365973282955_2_alg».proof.Proof.Gen.KernelIdeal.Skeleton
import proofs.«127023_j78365973282955_2_alg».proof.Proof.Spec
import proofs.«127023_j78365973282955_2_alg».proof.Proof.LibColumns
import proofs.«127023_j78365973282955_2_alg».proof.Proof.LibMatmulNN
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx Cert.ModConv

/-- The scales' [1, 1, 512] tile as a row of 512 scales. -/
def rowOf (v : Vec Ideal S1x1x512 .f32) : Fin 512 → EReal := fun i => v (ix3 (0 : Fin 1) (0 : Fin 1) i)

/-- The [1, 1, 512] tile cast to [1, 512] keeps its entries: both are laid out as one row. -/
theorem cast_row (v : Vec Ideal S1x1x512 .f32) (i : Fin 512) :
    shapeCast S1x512 v shapeCasts_S1x1x512_S1x512 (ix2 (0 : Fin 1) i) = v (ix3 (0 : Fin 1) (0 : Fin 1) i) :=
  shapeCast_apply v _ _ _ (by
    rw [Shape.rowMajor_val_three, Shape.rowMajor_val_two]
    show (0 * 1 + 0) * 512 + i.val = 0 * 512 + i.val
    omega)

/-- A [1, 512] row broadcast to [512, 512] reads, at (o, i), the row at i. -/
theorem bcast_row (v : FVec Ideal S1x512 .f32) (o i : Fin 512) :
    broadcastTo S512x512 v broadcasts_S1x512_S512x512 (ix2 o i) = v (ix2 (0 : Fin 1) i) :=
  broadcastTo_apply v _ (ix2 o i) (ix2 (0 : Fin 1) i) fun ax => by
    match ax with
    | ⟨0, _⟩ => rfl
    | ⟨1, _⟩ => rfl

/-- The weight tile scaled along its input channels by the row of scales. -/
def scaledBlock (v11 : Vec Ideal S1x1x512 .f32) (v13 : Vec Ideal S512x512 .f32) : FVec Ideal S512x512 .f32 :=
  mulf v13 (broadcastTo S512x512 (shapeCast S1x512 v11 shapeCasts_S1x1x512_S1x512) broadcasts_S1x512_S512x512)

theorem scaledBlock_apply (v11 : Vec Ideal S1x1x512 .f32) (v13 : Vec Ideal S512x512 .f32) (o i : Fin 512) :
    scaledBlock v11 v13 (ix2 o i) = scaled v13 (rowOf v11) o i := by
  show v13 (ix2 o i) * broadcastTo S512x512 (shapeCast S1x512 v11 shapeCasts_S1x1x512_S1x512) broadcasts_S1x512_S512x512 (ix2 o i)
    = v13 (ix2 o i) * v11 (ix3 (0 : Fin 1) (0 : Fin 1) i)
  rw [bcast_row, cast_row]

/-- Each output channel's sum of squares of its scaled row. -/
def sumsqBlock (v11 : Vec Ideal S1x1x512 .f32) (v13 : Vec Ideal S512x512 .f32) : FVec Ideal S512 .f32 :=
  multiReduction .add [1] S512 (mulf (scaledBlock v11 v13) (scaledBlock v11 v13)) 0x00000000#32 reduces_S512x512_S512 (.inl rfl) rfl

theorem sumsqBlock_apply (v11 : Vec Ideal S1x1x512 .f32) (v13 : Vec Ideal S512x512 .f32) (o : Fin 512) :
    sumsqBlock v11 v13 (ix1 o) = ∑ k : Fin 512, scaled v13 (rowOf v11) o k * scaled v13 (rowOf v11) o k := by
  unfold sumsqBlock
  refine (Cert.LibColumns.multiReduction_add_rows_apply _ _ _ _ _ o).trans ?_
  refine Finset.sum_congr rfl fun k _ => ?_
  show scaledBlock v11 v13 (ix2 o k) * scaledBlock v11 v13 (ix2 o k) = _
  rw [scaledBlock_apply]

/-- The normalisers, as a [512, 1] column. -/
def demodBlock (v11 : Vec Ideal S1x1x512 .f32) (v13 : Vec Ideal S512x512 .f32) : FVec Ideal S512x1 .f32 :=
  rsqrt (addf (shapeCast S512x1 (sumsqBlock v11 v13) shapeCasts_S512_S512x1) (broadcast S512x1 (Scalar.ofBits .f32 0x322BCC77#32)))

theorem demodBlock_apply (v11 : Vec Ideal S1x1x512 .f32) (v13 : Vec Ideal S512x512 .f32) (o : Fin 512) :
    demodBlock v11 v13 (ix2 o (0 : Fin 1)) = demod v13 (rowOf v11) o := by
  show Ideal.rsqrt (shapeCast S512x1 (sumsqBlock v11 v13) shapeCasts_S512_S512x1 (ix2 o (0 : Fin 1)) + Ideal.ofBits .f32 0x322BCC77#32) = _
  rw [Cert.LibColumns.shapeCast_a_a1_apply, sumsqBlock_apply]
  rfl

/-- The first stored value is those stages composed. -/
theorem pay1_eq (v11 : Vec Ideal S1x1x512 .f32) (v13 : Vec Ideal S512x512 .f32) :
    k0_pay1 (F := Ideal) v11 v13
      = shapeCast S512x512 (truncf .bf16 (mulf (scaledBlock v11 v13) (broadcastTo S512x512 (demodBlock v11 v13) broadcasts_S512x1_S512x512)) bitsLt_bf16_f32) shapeCasts_S512x512_S512x512 := rfl

/-- THE SCRATCH'S CONTENTS: at (o, i) the normalised scaled weight. -/
theorem pay1_apply (v11 : Vec Ideal S1x1x512 .f32) (v13 : Vec Ideal S512x512 .f32) (o i : Fin 512) :
    k0_pay1 (F := Ideal) v11 v13 (ix2 o i) = demodulated v13 (rowOf v11) o i := by
  rw [pay1_eq, shapeCast_self]
  show scaledBlock v11 v13 (ix2 o i) * broadcastTo S512x512 (demodBlock v11 v13) broadcasts_S512x1_S512x512 (ix2 o i) = _
  rw [scaledBlock_apply, Cert.LibColumns.broadcastTo_a1_ab_apply, demodBlock_apply]
  rfl

/-- The sample's [1, 512, 2048] tile cast to [512, 2048] keeps its entries. -/
theorem cast_sample (v : Vec Ideal S1x512x2048 .f32) (k : Fin 512) (j : Fin 2048) :
    shapeCast S512x2048 v shapeCasts_S1x512x2048_S512x2048 (ix2 k j) = v (ix3 (0 : Fin 1) k j) :=
  shapeCast_apply v _ _ _ (by
    rw [Shape.rowMajor_val_three, Shape.rowMajor_val_two]
    show (0 * 512 + k.val) * 2048 + j.val = k.val * 2048 + j.val
    omega)

/-- The [512, 2048] product cast to the output's [1, 512, 2048] tile keeps its entries. -/
theorem cast_out (v : FVec Ideal S512x2048 .f32) (o : Fin 512) (j : Fin 2048) :
    shapeCast S1x512x2048 v shapeCasts_S512x2048_S1x512x2048 (ix3 (0 : Fin 1) o j) = v (ix2 o j) :=
  shapeCast_apply v _ _ _ (by
    rw [Shape.rowMajor_val_three, Shape.rowMajor_val_two]
    show o.val * 2048 + j.val = (0 * 512 + o.val) * 2048 + j.val
    omega)

/-- THE OUTPUT TILE: at (0, o, j) the scratch's row o contracted with the sample tile's column j. -/
theorem pay2_apply (v3 : Vec Ideal S1x512x2048 .f32) (v6 : Vec Ideal S512x512 .bf16) (o : Fin 512) (j : Fin 2048) :
    k0_pay2 (F := Ideal) v3 v6 (ix3 (0 : Fin 1) o j) = ∑ k : Fin 512, v6 (ix2 o k) * v3 (ix3 (0 : Fin 1) k j) := by
  unfold k0_pay2
  refine (cast_out _ o j).trans ?_
  refine (Cert.LibMatmulNN.matmul_nn_apply dot_S512x512_S512x2048_S512x2048_1_0_0_1_n_n rfl rfl rfl rfl rfl rfl none v6 _ o j).trans ?_
  refine Finset.sum_congr rfl fun k _ => ?_
  show v6 (ix2 o k) * shapeCast S512x2048 v3 shapeCasts_S1x512x2048_S512x2048 (ix2 k j) = _
  rw [cast_sample]

end Cert.KernelIdeal.Payload

end
-- ==== Proof.KernelValue.lean ====
/-
  The kernel's result array is the modulated, demodulated convolution of its argument arrays.

  The grid is 16 batches by 2 position tiles, the tile innermost, so grid point t works on batch t / 2 and on
  positions (t mod 2) · 2048 … + 2047. The weight window is always the whole weight; the scales window is row
  t / 2 of the scales (kept as a [16, 1, 512] array); the sample and output windows are the [1, 512, 2048] tile of
  that batch and those positions. The scratch is rewritten at every even point from that point's weight and scales
  and left alone at the odd point after it, which belongs to the same batch: so at every point the scratch holds the
  normalised scaled weight of the point's own batch, and the output tile is its contraction with the sample tile.
  The 32 output tiles partition the result array.
-/
import proofs.«127023_j78365973282955_2_alg».proof.Proof.Gen.KernelIdeal.Value
import proofs.«127023_j78365973282955_2_alg».proof.Proof.KernelCases
import proofs.«127023_j78365973282955_2_alg».proof.Proof.KernelPayload
import proofs.«127023_j78365973282955_2_alg».proof.Proof.Spec

noncomputable section

open scoped BigOperators

namespace Cert.KernelIdeal.KernelValue

open Cert.KernelIdeal Cert.KernelIdeal.Gen Cert.KernelIdeal.Payload Cert.KernelIdeal.Cases Cert.ModConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' block indices at grid point t, decided over the 32 points: the weight's block never moves, the
    scales' block is the batch's row, the sample's and the output's blocks are the batch's tile. -/
theorem idx_facts : ∀ t : Fin cfg0.N,
    win0_0.index t (0 : Fin 2) = 0 ∧ win0_0.index t (1 : Fin 2) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = t.val % 2
    ∧ win0_3.index t (0 : Fin 3) = t.val / 2 ∧ win0_3.index t (1 : Fin 3) = 0 ∧ win0_3.index t (2 : Fin 3) = t.val % 2 :=
  (by decide +kernel : ∀ t : Fin grid0.N, _)

/-- The batch grid point t works on. -/
def batchOf (t : Fin cfg0.N) : Fin 16 := ⟨t.val / 2, by have h := t.isLt; have hN : cfg0.N = 32 := N_0; omega⟩

/-- The position, in the whole sample, of column j of grid point t's tile. -/
def posOf (t : Fin cfg0.N) (j : Fin 2048) : Fin 4096 := ⟨t.val % 2 * 2048 + j.val, by have := j.isLt; omega⟩

/-- The modulation scales as the kernel's call finds them: the host stages before the call leave them in a
    [16, 1, 512] array, read here as [16, 512]. -/
def scales (c : Dev nD) : SShape.Idx → EReal :=
  fun i => (V m c main_v19 : S16x1x512.Idx → Elt Ideal .f32) (ix3 (i 0) (0 : Fin 1) (i 1))

/-- The weight window's block is the weight. -/
theorem weight_block (c : Dev nD) (t : Fin cfg0.N) (o i : Fin 512) :
    (iblk m c 0 t : Vec Ideal S512x512 .f32) (ix2 o i) = (V m c main_arg2 : S512x512.Idx → Elt Ideal .f32) (ix2 o i) := by
  obtain ⟨e0, e1, -⟩ := idx_facts t
  unfold iblk
  rw [View.read_apply]
  show V m c main_arg2 _ = V m c main_arg2 _
  congr 1
  funext a
  apply Fin.ext
  match a with
  | ⟨0, _⟩ => show win0_0.index t (0 : Fin 2) * 512 + 1 * o.val = o.val; rw [e0]; omega
  | ⟨1, _⟩ => show win0_0.index t (1 : Fin 2) * 512 + 1 * i.val = i.val; rw [e1]; omega

/-- The scales window's block is the batch's row of scales. -/
theorem scales_block (c : Dev nD) (t : Fin cfg0.N) (k : Fin 512) :
    (iblk m c 1 t : Vec Ideal S1x1x512 .f32) (ix3 (0 : Fin 1) (0 : Fin 1) k) = scales m c (ix2 (batchOf t) k) := by
  obtain ⟨-, -, e0, e1, e2, -⟩ := idx_facts t
  unfold iblk scales
  rw [View.read_apply]
  show V m c main_v19 _ = V m c main_v19 _
  congr 1
  funext a
  apply Fin.ext
  match a with
  | ⟨0, _⟩ => show win0_1.index t (0 : Fin 3) * 1 + 1 * 0 = t.val / 2; rw [e0]; omega
  | ⟨1, _⟩ => show win0_1.index t (1 : Fin 3) * 1 + 1 * 0 = 0; rw [e1]
  | ⟨2, _⟩ => show win0_1.index t (2 : Fin 3) * 512 + 1 * k.val = k.val; rw [e2]; omega

/-- The sample window's block is the batch's tile of the sample. -/
theorem sample_block (c : Dev nD) (t : Fin cfg0.N) (k : Fin 512) (j : Fin 2048) :
    (iblk m c 2 t : Vec Ideal S1x512x2048 .f32) (ix3 (0 : Fin 1) k j)
      = (V m c main_arg0 : S16x512x4096.Idx → Elt Ideal .f32) (ix3 (batchOf t) k (posOf t j)) := by
  obtain ⟨-, -, -, -, -, e0, e1, e2, -⟩ := idx_facts t
  unfold iblk
  rw [View.read_apply]
  show V m c main_arg0 _ = V m c main_arg0 _
  congr 1
  funext a
  apply Fin.ext
  match a with
  | ⟨0, _⟩ => show win0_2.index t (0 : Fin 3) * 1 + 1 * 0 = t.val / 2; rw [e0]; omega
  | ⟨1, _⟩ => show win0_2.index t (1 : Fin 3) * 512 + 1 * k.val = k.val; rw [e1]; omega
  | ⟨2, _⟩ => show win0_2.index t (2 : Fin 3) * 2048 + 1 * j.val = t.val % 2 * 2048 + j.val; rw [e2]; omega

/-- At every point the output tile is the product of what the scratch holds after the point with the sample tile:
    an even point has just rewritten the scratch and reads it back, an odd point leaves it as it was. -/
theorem out_eq (c : Dev nD) (t : Fin cfg0.N) :
    (outsAt0 m c t.val t.isLt).1 = k0_pay2 (iblk m c 2 t) (outsAt0 m c t.val t.isLt).2 := by
  by_cases h0 : t.val % 2 = 0
  · rw [outsAt0_A m c t h0]
    dsimp only
    rw [out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t),
      scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  · rw [outsAt0_B m c t h0]
    dsimp only
    rw [out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2]
    rfl

/-- After an even point the scratch holds the normalised scaled weight of the point's batch. -/
theorem scratch_even (c : Dev nD) (t : Fin cfg0.N) (h0 : t.val % 2 = 0) (o k : Fin 512) :
    ((outsAt0 m c t.val t.isLt).2 : Vec Ideal S512x512 .bf16) (ix2 o k)
      = demodulated (V m c main_arg2) (scaleRow (scales m c) (batchOf t)) o k := by
  rw [outsAt0_A m c t h0]
  dsimp only
  rw [scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  refine (pay1_apply (iblk m c 1 t) (iblk m c 0 t) o k).trans ?_
  have hW : (iblk m c 0 t : Vec Ideal S512x512 .f32) = V m c main_arg2 :=
    funext fun y => by rw [eq_ix2 y]; exact weight_block m c t _ _
  have hR : rowOf (iblk m c 1 t) = scaleRow (scales m c) (batchOf t) := funext fun i => scales_block m c t i
  rw [hW, hR]

/-- After ANY point the scratch holds the normalised scaled weight of the point's batch: an odd point leaves what
    the even point before it, of the same batch, wrote. -/
theorem scratch_apply (c : Dev nD) (t : Fin cfg0.N) (o k : Fin 512) :
    ((outsAt0 m c t.val t.isLt).2 : Vec Ideal S512x512 .bf16) (ix2 o k)
      = demodulated (V m c main_arg2) (scaleRow (scales m c) (batchOf t)) o k := by
  by_cases h0 : t.val % 2 = 0
  · exact scratch_even m c t h0 o k
  · have hN : cfg0.N = 32 := N_0
    have ht := t.isLt
    have hlt : t.val - 1 < cfg0.N := by omega
    rw [outsAt0_B m c t h0]
    dsimp only
    unfold sout0_B_0
    refine (scratch_even m c ⟨t.val - 1, hlt⟩ (by show (t.val - 1) % 2 = 0; omega) o k).trans ?_
    have hb : batchOf ⟨t.val - 1, hlt⟩ = batchOf t := Fin.ext (by show (t.val - 1) / 2 = t.val / 2; omega)
    rw [hb]

/-- The output tile after point t, at (0, o, j): the batch's normalised scaled weight contracted with the sample. -/
theorem out_apply (c : Dev nD) (t : Fin cfg0.N) (o : Fin 512) (j : Fin 2048) :
    ((outsAt0 m c t.val t.isLt).1 : Vec Ideal S1x512x2048 .f32) (ix3 (0 : Fin 1) o j)
      = ∑ k : Fin 512, demodulated (V m c main_arg2) (scaleRow (scales m c) (batchOf t)) o k
          * (V m c main_arg0 : S16x512x4096.Idx → Elt Ideal .f32) (ix3 (batchOf t) k (posOf t j)) := by
  refine (congrFun (out_eq m c t) (ix3 (0 : Fin 1) o j)).trans ?_
  refine (pay2_apply (iblk m c 2 t) (outsAt0 m c t.val t.isLt).2 o j).trans (Finset.sum_congr rfl fun k _ => ?_)
  exact congrArg₂ (· * ·) (scratch_apply m c t o k) (sample_block m c t k j)

/-- WHAT POINT t WRITES BACK is its tile of the convolution of the arrays as the call finds them. -/
theorem flushed_eq (c : Dev nD) (t : Fin cfg0.N) :
    (dats m 0 c).flushed 3 t
      = ((cfg0.win 3).blk t).view.read (Elt Ideal) (conv (V m c main_arg0) (V m c main_arg2) (scales m c)) := by
  rw [Cert.KernelIdeal.Value.flushed3]
  funext y
  obtain ⟨u, o, j, rfl⟩ : ∃ (u : Fin 1) (o : Fin 512) (j : Fin 2048), y = ix3 u o j := ⟨y 0, y 1, y 2, eq_ix3 y⟩
  obtain rfl : u = 0 := Subsingleton.elim _ _
  rw [View.read_apply]
  show ((outsAt0 m c t.val t.isLt).1 : Vec Ideal S1x512x2048 .f32) (ix3 (0 : Fin 1) o j)
    = conv (V m c main_arg0) (V m c main_arg2) (scales m c) (((cfg0.win 3).blk t).view.emb (ix3 (0 : Fin 1) o j))
  have he : ((cfg0.win 3).blk t).view.emb (ix3 (0 : Fin 1) o j) = ix3 (batchOf t) o (posOf t j) := by
    obtain ⟨-, -, -, -, -, -, -, -, e0, e1, e2⟩ := idx_facts t
    funext a
    apply Fin.ext
    match a with
    | ⟨0, _⟩ => show win0_3.index t (0 : Fin 3) * 1 + 1 * 0 = t.val / 2; rw [e0]; omega
    | ⟨1, _⟩ => show win0_3.index t (1 : Fin 3) * 512 + 1 * o.val = o.val; rw [e1]; omega
    | ⟨2, _⟩ => show win0_3.index t (2 : Fin 3) * 2048 + 1 * j.val = t.val % 2 * 2048 + j.val; rw [e2]; omega
  rw [he]
  exact out_apply m c t o j

/-- Every index of the result array lies in the tile of the point of its batch and its half of the positions. -/
theorem cover (i : S16x512x4096.Idx) :
    ∃ t : Fin cfg0.N, (cfg0.win 3).flush t = true ∧ i ∈ ((cfg0.win 3).blk t).view.set := by
  have hN : cfg0.N = 32 := N_0
  have h0 : (i 0).val < 16 := (i 0).isLt
  have h1 : (i 1).val < 512 := (i 1).isLt
  have h2 : (i 2).val < 4096 := (i 2).isLt
  obtain ⟨t, ht⟩ : ∃ t : Fin cfg0.N, t.val = 2 * (i 0).val + (i 2).val / 2048 := ⟨⟨_, by omega⟩, rfl⟩
  obtain ⟨-, -, -, -, -, -, -, -, e0, e1, e2⟩ := idx_facts t
  refine ⟨t, flush0_3 t, ?_⟩
  show i ∈ ((View.whole main_v20).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 512 ≤ (i 1).val ∧ (i 1).val < win0_3.index t (1 : Fin 3) * 512 + 512
    rw [e1]; omega
  | ⟨2, _⟩ =>
    show win0_3.index t (2 : Fin 3) * 2048 ≤ (i 2).val ∧ (i 2).val < win0_3.index t (2 : Fin 3) * 2048 + 2048
    rw [e2]; omega

/-- THE RESULT ARRAY after the run is the convolution of the arrays as the call finds them. -/
theorem final (c : Dev nD) :
    (dats m 0 c).arrAt 3 cfg0.N = conv (V m c main_arg0) (V m c main_arg2) (scales m c) :=
  (dats m 0 c).arrAt_eq_of_cover 3 (conv (V m c main_arg0) (V m c main_arg2) (scales m c)) (fun t _ => flushed_eq m c t) cover

/-- The run, read: the result array at the convolution of the sample and weight arguments under the scales the host
    stages computed; the arguments unchanged. -/
theorem run : θ_run defs (onTc (τ := τ) (main (F := Ideal))) ⟨m, fun _ => 0, ρ⟩ fun r => ∀ c : Dev nD,
      r.2.mem ((c : Thread nD τ).loc main_v20)
        = conv (m ((c : Thread nD τ).loc main_arg0)) (m ((c : Thread nD τ).loc main_arg2)) (scales m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (by rw [V_main_arg0, V_main_arg2])), (h c).2⟩)
    (Cert.KernelIdeal.Value.run_blocks m ρ)

end Cert.KernelIdeal.KernelValue

end
-- ==== Proof.HostScales.lean ====
/-
  The modulation scales the kernel's call is handed are the reference's own.

  Both programs run the same modulation network on the host before anything else — a linear layer, a SiLU, a second
  linear layer, a second SiLU, a third linear layer, plus one — stage for stage the same operations of the same
  arguments; the kernel's program then only re-lays the [16, 512] result as [16, 1, 512] for its call. So the scales
  read off that array are the reference's scales, as one unopened function of the network's arguments.
-/
import proofs.«127023_j78365973282955_2_alg».proof.Proof.Gen.KernelIdeal.Frame
import proofs.«127023_j78365973282955_2_alg».proof.Proof.Gen.ReferenceIdeal.Read
import proofs.«127023_j78365973282955_2_alg».proof.Proof.KernelValue
import Idealize.ShloMosaic.Lib.StableHlo.Run
import Idealize.ShloMosaic.Lib.Pipeline.Value

noncomputable section

namespace Cert.KernelIdeal.HostScales

open Cert.KernelIdeal Cert.KernelIdeal.Gen Cert.ModConv
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxRecDepth 8192 in
set_option maxHeartbeats 2000000 in
/-- The array the call's scales window reads is the reference's scales stage, re-laid as [16, 1, 512]. -/
theorem scalesArray_eq (c : Dev nD) :
    (V m c main_v19 : S16x1x512.Idx → Elt Ideal .f32)
      = shapeCast S16x1x512 (Cert.ReferenceIdeal.Read.val_main_v18 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S16x512_S16x1x512 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- So the scales the kernel's result is stated over are the reference's scales: entry (b, 0, k) of the re-laid array
    is entry (b, k) of the stage. -/
theorem scales_eq (c : Dev nD) :
    Cert.KernelIdeal.KernelValue.scales m c = Cert.ReferenceIdeal.Read.val_main_v18 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, k, rfl⟩ : ∃ (b : Fin 16) (k : Fin 512), i = ix2 b k := ⟨i 0, i 1, eq_ix2 i⟩
  unfold Cert.KernelIdeal.KernelValue.scales
  refine (congrFun (scalesArray_eq m c) _).trans ?_
  exact shapeCast_apply _ _ _ _ (by
    rw [Shape.rowMajor_val_two, Shape.rowMajor_val_three]
    show b.val * 512 + k.val = (b.val * 1 + 0) * 512 + k.val
    omega)

end Cert.KernelIdeal.HostScales

end
-- ==== Proof.RefValue.lean ====
/-
  The reference computes the modulated, demodulated convolution: its last stage, read index by index over the
  extended reals, is the contraction of the normalised scaled weight with the sample, where the scales are its own
  modulation network's output (kept as one unopened function of the network's arguments: the kernel computes the
  same host stages).

  Stage by stage: the weight and the scales are broadcast to [16, 512, 512] and multiplied (the scaled weight);
  its squares are summed over the input channels from zero; the small constant is added and the inverse square
  root taken; the result is broadcast back along the input channels and multiplied in; a batched matrix product
  with the sample contracts the input channels.
-/
import proofs.«127023_j78365973282955_2_alg».proof.Proof.Gen.ReferenceIdeal.Read
import proofs.«127023_j78365973282955_2_alg».proof.Proof.Spec

noncomputable section

open scoped BigOperators

namespace Cert.ReferenceIdeal.RefValue

open Cert.ReferenceIdeal Cert.ReferenceIdeal.Read Idealize.ShloMosaic Idealize.ShloMosaic.ValueIdx Cert.ModConv

variable (x0 : (⟨S16x512x4096, .f32⟩ : BufTy).Contents (Elt Ideal)) (x1 : (⟨S16x256, .f32⟩ : BufTy).Contents (Elt Ideal))
  (x2 : (⟨S512x512, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S512x256, .f32⟩ : BufTy).Contents (Elt Ideal))
  (x8 : (⟨S512, .f32⟩ : BufTy).Contents (Elt Ideal))

/-- The scaled weight: at (b, o, k) the weight at (o, k) times batch b's scale k. -/
theorem scaled_eq (b : Fin 16) (o k : Fin 512) :
    val_main_v23 (F := Ideal) x1 x2 x3 x4 x5 x6 x7 x8 (ix3 b o k)
      = scaled x2 (scaleRow (val_main_v18 (F := Ideal) x1 x3 x4 x5 x6 x7 x8) b) o k := by
  rw [val_main_v23_apply, val_main_v21_apply, val_main_v19_apply, val_main_v22_apply, val_main_v20_apply]
  have e1 : idx_main_v19 (idx_main_v21 (ix3 b o k)) = ix2 o k :=
    funext fun a => by match a with | ⟨0, _⟩ => rfl | ⟨1, _⟩ => rfl
  have e2 : idx_main_v20 (idx_main_v22 (ix3 b o k)) = ix2 b k :=
    funext fun a => by match a with | ⟨0, _⟩ => rfl | ⟨1, _⟩ => rfl
  rw [e1, e2]
  rfl

/-- The normaliser broadcast along the input channels: at (b, o, k) the inverse square root of output channel o's
    sum of squares (summed from zero) plus the small constant. -/
theorem demod_eq (b : Fin 16) (o k : Fin 512) :
    val_main_v30 (F := Ideal) x1 x2 x3 x4 x5 x6 x7 x8 (ix3 b o k)
      = demod x2 (scaleRow (val_main_v18 (F := Ideal) x1 x3 x4 x5 x6 x7 x8) b) o := by
  rw [val_main_v30_apply, val_main_v29_apply, val_main_v28_apply, val_main_v27_apply, val_main_v25_apply, val_main_v26_apply]
  show Ideal.rsqrt ((Ideal.ofBits .f32 0x00000000#32
      + ∑ k' : Fin 512, val_main_v24 (F := Ideal) x1 x2 x3 x4 x5 x6 x7 x8 (idx_main_v25 (idx_main_v29 (idx_main_v30 (ix3 b o k))) k'))
      + Ideal.ofBits .f32 0x322BCC77#32) = _
  rw [Ideal.ofBits_zero_f32, zero_add]
  unfold demod
  refine congrArg Ideal.rsqrt (congrArg (· + Ideal.ofBits .f32 0x322BCC77#32) (Finset.sum_congr rfl fun k' _ => ?_))
  have e : idx_main_v25 (idx_main_v29 (idx_main_v30 (ix3 b o k))) k' = ix3 b o k' :=
    funext fun a => by match a with | ⟨0, _⟩ => rfl | ⟨1, _⟩ => rfl | ⟨2, _⟩ => rfl
  rw [e, val_main_v24_apply, scaled_eq]
  rfl

/-- THE REFERENCE'S RESULT is the convolution of the sample with the weight under its own scales. -/
theorem result_eq :
    val_main_v32 (F := Ideal) x0 x1 x2 x3 x4 x5 x6 x7 x8 = conv x0 x2 (val_main_v18 (F := Ideal) x1 x3 x4 x5 x6 x7 x8) := by
  funext j
  obtain ⟨b, o, l, rfl⟩ : ∃ (b : Fin 16) (o : Fin 512) (l : Fin 4096), j = ix3 b o l := ⟨j 0, j 1, j 2, eq_ix3 j⟩
  rw [val_main_v32_apply]
  unfold conv
  refine Finset.sum_congr rfl fun k _ => ?_
  have e1 : lidx_main_v32 (ix3 b o l) k = ix3 b o k :=
    funext fun a => by match a with | ⟨0, _⟩ => rfl | ⟨1, _⟩ => rfl | ⟨2, _⟩ => rfl
  have e2 : ridx_main_v32 (ix3 b o l) k = ix3 b k l :=
    funext fun a => by match a with | ⟨0, _⟩ => rfl | ⟨1, _⟩ => rfl | ⟨2, _⟩ => rfl
  rw [e1, e2, val_main_v31_apply, scaled_eq, demod_eq]
  rfl

end Cert.ReferenceIdeal.RefValue

end
-- ==== Proof.lean ====
/-
  The certificate of the modulated, demodulated 1x1 convolution.

  The kernel computes, per batch b, the weight scaled along its input channels by the batch's modulation scales,
  w(o, i) · s(b, i), normalises each output channel by the inverse square root of its sum of squares plus a small
  constant, and contracts the result with the sample x(b, i, l) over i, tile by tile, holding the normalised weight
  in a scratch between the two position tiles of a batch. The reference computes the same array with whole-array
  operations. Over the extended reals both are one function of the arguments, index by index (Spec): no law of
  arithmetic is needed beyond reading each side's sums and layouts by coordinates, so the finiteness of the inputs is
  never used. The modulation scales come from the same host stages in both programs (HostScales).

  The three frames are the generated ones (the reference's is its generated run with the result dropped); the
  idealization rewrote nothing, so the kernel's idealized program is its own text read over the extended reals.
-/
import proofs.«127023_j78365973282955_2_alg».proof.Defs
import proofs.«127023_j78365973282955_2_alg».proof.Proof.Gen.Kernel
import proofs.«127023_j78365973282955_2_alg».proof.Proof.Gen.Kernel.Skeleton
import proofs.«127023_j78365973282955_2_alg».proof.Proof.Gen.Kernel.Launch
import proofs.«127023_j78365973282955_2_alg».proof.Proof.Gen.Kernel.Points
import proofs.«127023_j78365973282955_2_alg».proof.Proof.Gen.Kernel.Frame
import proofs.«127023_j78365973282955_2_alg».proof.Proof.Gen.KernelIdeal
import proofs.«127023_j78365973282955_2_alg».proof.Proof.Gen.KernelIdeal.Skeleton
import proofs.«127023_j78365973282955_2_alg».proof.Proof.Gen.KernelIdeal.Launch
import proofs.«127023_j78365973282955_2_alg».proof.Proof.Gen.KernelIdeal.Points
import proofs.«127023_j78365973282955_2_alg».proof.Proof.Gen.KernelIdeal.Frame
import proofs.«127023_j78365973282955_2_alg».proof.Proof.Gen.ReferenceIdeal
import proofs.«127023_j78365973282955_2_alg».proof.Proof.Gen.KernelIdeal.Value
import proofs.«127023_j78365973282955_2_alg».proof.Proof.Gen.ReferenceIdeal.Run
import proofs.«127023_j78365973282955_2_alg».proof.Proof.Gen.ReferenceIdeal.Read
import proofs.«127023_j78365973282955_2_alg».proof.Proof.Gen.Pre_finite_inputs
import proofs.«127023_j78365973282955_2_alg».proof.Proof.Spec
import proofs.«127023_j78365973282955_2_alg».proof.Proof.KernelValue
import proofs.«127023_j78365973282955_2_alg».proof.Proof.HostScales
import proofs.«127023_j78365973282955_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the convolution of the sample and the weight under the
    scales its host stages computed, and the reference's at the convolution under its own scales: the same stages of
    arguments that agree, so the same array. -/
theorem algebraic : Cert.algebraic_KernelIdeal_ReferenceIdeal := by
  intro m ρ m' ρ' _ hagree
  refine ⟨fun c => Cert.ModConv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (Cert.KernelIdeal.KernelValue.scales m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v32_eq, Cert.ReferenceIdeal.RefValue.result_eq, e0, e1, e2, e3, e4, e5, e6, e7, e8]
  exact congrArg (Cert.ModConv.conv _ _) (Cert.KernelIdeal.HostScales.scales_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
